-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16x512 : Shape := ⟨2, ![16, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16x4096x512 .f32) (main_arg1 : FVec F S16x512 .f32) (main_arg2 : FVec F S512x512 .f32) (main_arg3 : FVec F S512 .f32) (main_arg4 : FVec F S512x512 .f32) (main_arg5 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16x4096x512 : Shape := ⟨3, ![16, 4096, 512]⟩
abbrev S16x512 : Shape := ⟨2, ![16, 512]⟩
abbrev S512x512 : Shape := ⟨2, ![512, 512]⟩
abbrev S512 : Shape := ⟨1, ![512]⟩
abbrev S16x1x512 : Shape := ⟨3, ![16, 1, 512]⟩
abbrev S1x2048x512 : Shape := ⟨3, ![1, 2048, 512]⟩
abbrev S1x1x512 : Shape := ⟨3, ![1, 1, 512]⟩
abbrev S1x512 : Shape := ⟨2, ![1, 512]⟩
abbrev S512x1 : Shape := ⟨2, ![512, 1]⟩
abbrev S2048x512 : Shape := ⟨2, ![2048, 512]⟩

abbrev nBuf : Space → Nat
  | .hbm => 8
  | .vmem => 11
  | .smem => 0
  | _ => 0

abbrev bufTy : (tb : Table) → Fin (tcTables nBuf tb) → BufTy
  | .hbm, ⟨0, _⟩ => ⟨S16x4096x512, .f32⟩
  | .hbm, ⟨1, _⟩ => ⟨S16x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S16x1x512, .f32⟩
  | .hbm, ⟨7, _⟩ => ⟨S16x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x2048x512, .f32⟩
  | .local _ .vmem, ⟨9, _⟩ => ⟨S1x2048x512, .f32⟩
  | .local _ .vmem, ⟨10, _⟩ => ⟨S512x512, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S16x512_S16x1x512_0_2 : S16x512.BroadcastsInDim S16x1x512 (![0, 2] : Fin 2 → Fin S16x1x512.rank)
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  transposes_S512x512_p1_0_S512x512 : S512x512.Transposes [1, 0] S512x512
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  shapeCasts_S2048x512_S1x2048x512 : S2048x512.ShapeCasts S1x2048x512
  dot_S1x512_S512x512_S1x512_1_1_0_0_n_n_wf : DotDims.WF S1x512 S512x512 S1x512 [1] [1] [0] [0] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x4096x512.size a
  hwx0_0 : ∀ i : grid0.Coords, EltTy.bits .f32 = 32 ∨ (Rect.block (s := S16x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x512.size a ≤ S16x4096x512.size a
  hwx0_6 : ∀ i : grid0.Coords, EltTy.bits .f32 = 32 ∨ (Rect.block (s := S16x4096x512) S1x2048x512.size (cc0_transform_6 i) (hinb0_6 i)).WholeWords (EltTy.packing .f32)

variable [Facts₀]

def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S16x512 : Shape := ⟨2, ![16, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S16x1x512 : Shape := ⟨3, ![16, 1, 512]⟩
abbrev S16x512x512 : Shape := ⟨3, ![16, 512, 512]⟩
abbrev S_ : Shape := ⟨0, ![]⟩
abbrev S16x512x1 : Shape := ⟨3, ![16, 512, 1]⟩
abbrev S1x1x512 : Shape := ⟨3, ![1, 1, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S16x512, .f32⟩
  | .hbm, ⟨8, _⟩ => ⟨S1x512, .f32⟩
  | .hbm, ⟨9, _⟩ => ⟨S16x512, .f32⟩
  | .hbm, ⟨10, _⟩ => ⟨S16x512, .f32⟩
  | .hbm, ⟨11, _⟩ => ⟨S1x512x512, .f32⟩
  | .hbm, ⟨12, _⟩ => ⟨S16x1x512, .f32⟩
  | .hbm, ⟨13, _⟩ => ⟨S16x512x512, .f32⟩
  | .hbm, ⟨14, _⟩ => ⟨S16x512x512, .f32⟩
  | .hbm, ⟨15, _⟩ => ⟨S16x512x512, .f32⟩
  | .hbm, ⟨16, _⟩ => ⟨S16x512x512, .f32⟩
  | .hbm, ⟨17, _⟩ => ⟨S_, .f32⟩
  | .hbm, ⟨18, _⟩ => ⟨S16x512, .f32⟩
  | .hbm, ⟨19, _⟩ => ⟨S16x512x1, .f32⟩
  | .hbm, ⟨20, _⟩ => ⟨S_, .f32⟩
  | .hbm, ⟨21, _⟩ => ⟨S16x512x1, .f32⟩
  | .hbm, ⟨22, _⟩ => ⟨S16x512x1, .f32⟩
  | .hbm, ⟨23, _⟩ => ⟨S16x512x1, .f32⟩
  | .hbm, ⟨24, _⟩ => ⟨S16x512x512, .f32⟩
  | .hbm, ⟨25, _⟩ => ⟨S16x512x512, .f32⟩
  | .hbm, ⟨26, _⟩ => ⟨S16x4096x512, .f32⟩
  | .hbm, ⟨27, _⟩ => ⟨S1x1x512, .f32⟩
  | .hbm, ⟨28, _⟩ => ⟨S16x4096x512, .f32⟩
  | .hbm, ⟨29, _⟩ => ⟨S16x4096x512, .f32⟩
  | .hbm, ⟨30, _⟩ => ⟨S_, .f32⟩
  | .hbm, ⟨31, _⟩ => ⟨S16x4096x512, .f32⟩
  | .hbm, ⟨32, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S512x512_S1x512x512_1_2 : S512x512.BroadcastsInDim S1x512x512 (![1, 2] : Fin 2 → Fin S1x512x512.rank)
  bcast_S16x512_S16x1x512_0_2 : S16x512.BroadcastsInDim S16x1x512 (![0, 2] : Fin 2 → Fin S16x1x512.rank)
  bcast_S1x512x512_S16x512x512_0_1_2 : S1x512x512.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x512_0_1_2 : S16x512x1.BroadcastsInDim S16x512x512 (![0, 1, 2] : Fin 3 → Fin S16x512x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  dot_S16x512_S512x512_S16x512_1_0_0_1_n_n_wf : DotDims.WF S16x512 S512x512 S16x512 [1] [0] [0] [1] [] []
  dot_S16x4096x512_S16x512x512_S16x4096x512_2_2_1_1_0_0_wf : DotDims.WF S16x4096x512 S16x512x512 S16x4096x512 [2] [2] [1] [1] [0] [0]

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x4096x512_S16x512x512_S16x4096x512_2_2_1_1_0_0 : DotDims S16x4096x512 S16x512x512 S16x4096x512 where
  lhsContracting := [2]
  rhsContracting := [2]
  lhsNonContracting := [1]
  rhsNonContracting := [1]
  lhsBatch := [0]
  rhsBatch := [0]
  wf := dot_S16x4096x512_S16x512x512_S16x4096x512_2_2_1_1_0_0_wf

class Facts : Prop extends Facts₀ where

variable [Facts]
-- ==== Proof.Spec.lean ====
/-
  The modulated linear layer as ONE function of the six argument arrays, over the extended reals.

  For batch entry b, with w_b the b-th row of the style input:
    style_b(i)  = (∑_k w_b(k) · A_w(i,k)) + A_b(i)                     the style projection, one scale per input channel
    mod_b(o,i)  = weight(o,i) · style_b(i)                            the modulated weight
    norm_b(o)   = rsqrt(ε + ∑_i mod_b(o,i)²)                          the demodulation factor of output channel o
    demod_b(o,i) = mod_b(o,i) · norm_b(o)                             the demodulated weight
    out(b,n,o)  = max((∑_i x(b,n,i) · demod_b(o,i)) + bias(o), 0)     the layer followed by relu
  ε and the relu floor are kept as the f32 words the two programs share; neither is ever evaluated.
  Every definition takes the style row as a function of the channel index, so that the same text reads a
  row of the (16, 512) style array and a (1, 1, 512) block of it.
-/
import Idealize.ShloMosaic.PureOps.Ideal
import Idealize.ShloMosaic.Lib.ValueIdx

noncomputable section

namespace Cert.ModLinear

open Idealize.ShloMosaic Idealize.ShloMosaic.ValueIdx

/-- The demodulation epsilon: the f32 word nearest 1e-8, as both programs spell it. -/
abbrev epsWord : EReal := Ideal.ofBits .f32 0x322BCC77#32
/-- The relu floor: the f32 zero word. -/
abbrev zeroWord : EReal := Ideal.ofBits .f32 0x00000000#32

section PerBatch
variable (wrow : Fin 512 → EReal) (wt Aw : (⟨2, ![512, 512]⟩ : Shape).Idx → EReal)
  (Ab : (⟨1, ![512]⟩ : Shape).Idx → EReal)

/-- The style projection of one style row: a scale per input channel. -/
def styleAt (i : Fin 512) : EReal := (∑ k : Fin 512, wrow k * Aw (ix2 i k)) + Ab (ix1 i)

/-- The modulated weight. -/
def modAt (o i : Fin 512) : EReal := wt (ix2 o i) * styleAt wrow Aw Ab i

/-- The demodulation factor of an output channel: the reciprocal root of ε plus the row's sum of squares. -/
def normAt (o : Fin 512) : EReal :=
  Ideal.rsqrt (epsWord + ∑ i : Fin 512, modAt wrow wt Aw Ab o i * modAt wrow wt Aw Ab o i)

/-- The demodulated weight. -/
def demodAt (o i : Fin 512) : EReal := modAt wrow wt Aw Ab o i * normAt wrow wt Aw Ab o

end PerBatch

/-- One output element from a row of x, a row of the demodulated weight and a bias entry: the dot product, the
    bias, the relu. -/
def actAt (xrow wcol : Fin 512 → EReal) (bo : EReal) : EReal := max ((∑ i : Fin 512, xrow i * wcol i) + bo) zeroWord

/-- The layer's output at batch entry b, position n, output channel o. -/
def resultAt (x : (⟨3, ![16, 4096, 512]⟩ : Shape).Idx → EReal) (w : (⟨2, ![16, 512]⟩ : Shape).Idx → EReal)
    (wt : (⟨2, ![512, 512]⟩ : Shape).Idx → EReal) (bias : (⟨1, ![512]⟩ : Shape).Idx → EReal)
    (Aw : (⟨2, ![512, 512]⟩ : Shape).Idx → EReal) (Ab : (⟨1, ![512]⟩ : Shape).Idx → EReal)
    (b : Fin 16) (n : Fin 4096) (o : Fin 512) : EReal :=
  actAt (fun i => x (ix3 b n i)) (fun i => demodAt (fun k => w (ix2 b k)) wt Aw Ab o i) (bias (ix1 o))

/-- The whole output array. -/
def result (x : (⟨3, ![16, 4096, 512]⟩ : Shape).Idx → EReal) (w : (⟨2, ![16, 512]⟩ : Shape).Idx → EReal)
    (wt : (⟨2, ![512, 512]⟩ : Shape).Idx → EReal) (bias : (⟨1, ![512]⟩ : Shape).Idx → EReal)
    (Aw : (⟨2, ![512, 512]⟩ : Shape).Idx → EReal) (Ab : (⟨1, ![512]⟩ : Shape).Idx → EReal) :
    (⟨3, ![16, 4096, 512]⟩ : Shape).Idx → EReal :=
  fun j => resultAt x w wt bias Aw Ab (j 0) (j 1) (j 2)

/-- The output array read at an index with known coordinates. -/
theorem result_of_coords (x : (⟨3, ![16, 4096, 512]⟩ : Shape).Idx → EReal) (w : (⟨2, ![16, 512]⟩ : Shape).Idx → EReal)
    (wt : (⟨2, ![512, 512]⟩ : Shape).Idx → EReal) (bias : (⟨1, ![512]⟩ : Shape).Idx → EReal)
    (Aw : (⟨2, ![512, 512]⟩ : Shape).Idx → EReal) (Ab : (⟨1, ![512]⟩ : Shape).Idx → EReal)
    (j : (⟨3, ![16, 4096, 512]⟩ : Shape).Idx) (b : Fin 16) (n : Fin 4096) (o : Fin 512)
    (h0 : (j 0).val = b.val) (h1 : (j 1).val = n.val) (h2 : (j 2).val = o.val) :
    result x w wt bias Aw Ab j = resultAt x w wt bias Aw Ab b n o := by
  obtain rfl : j = ix3 b n o := funext fun a => Fin.ext (by
    match a with
    | ⟨0, _⟩ => exact h0
    | ⟨1, _⟩ => exact h1
    | ⟨2, _⟩ => exact h2)
  rfl

end Cert.ModLinear

end
-- ==== Proof.RefLayer.lean ====
/-
  The reference's composed term, read one stage at a time at explicit coordinates, is the layer function
  of Spec.lean.  The stages, in the reference's own order:
    the style projection s(b,i) = (∑_k w(b,k) · A_wᵀ(k,i)) + A_b(i)            — styleAt
    the modulated weight   wm(b,o,i) = weight(o,i) · s(b,i)                     — modAt
    the factor             rsqrt(ε + (0 + ∑_i wm(b,o,i)²))                      — normAt  (the host's sum starts from 0)
    the demodulated weight wm · factor                                         — demodAt
    the batched product over i, the bias, the maximum with 0                   — resultAt
  Each lemma chains the generated read-at-an-index lemmas of its stages and names the composed index
  maps by their coordinates.
-/
import proofs.«103570_j82652350644272_2_alg».proof.Proof.Gen.ReferenceIdeal.Read
import proofs.«103570_j82652350644272_2_alg».proof.Proof.Spec

noncomputable section

namespace Cert.ModLinear.Ref

open Cert.ReferenceIdeal Cert.ReferenceIdeal.Read Idealize.ShloMosaic Idealize.ShloMosaic.ValueIdx Cert.ModLinear

variable (x0 : S16x4096x512.Idx → EReal) (x1 : S16x512.Idx → EReal) (x2 : S512x512.Idx → EReal)
  (x3 : S512.Idx → EReal) (x4 : S512x512.Idx → EReal) (x5 : S512.Idx → EReal)

/-- The style projection plus its bias, at batch entry b and input channel i. -/
theorem style_apply (b : Fin 16) (i : Fin 512) :
    val_main_v4 (F := Ideal) x1 x4 x5 (ix2 b i) = styleAt (fun k => x1 (ix2 b k)) x4 x5 i := by
  rw [val_main_v4_apply, val_main_v1_apply, val_main_v3_apply, val_main_v2_apply]
  simp only [val_main_v0_apply]
  unfold styleAt
  have el : ∀ k : Fin 512, lidx_main_v1 (ix2 b i) k = ix2 b k := fun k =>
    funext fun a => Fin.ext (by match a with | ⟨0, _⟩ => rfl | ⟨1, _⟩ => rfl)
  have er : ∀ k : Fin 512, idx_main_v0 (ridx_main_v1 (ix2 b i) k) = ix2 i k := fun k =>
    funext fun a => Fin.ext (by match a with | ⟨0, _⟩ => rfl | ⟨1, _⟩ => rfl)
  have eb : idx_main_v2 (idx_main_v3 (ix2 b i)) = ix1 i :=
    funext fun a => Fin.ext (by match a with | ⟨0, _⟩ => rfl)
  simp only [el, er, eb]
  rfl

/-- The modulated weight at (b, o, i). -/
theorem mod_apply (b : Fin 16) (o i : Fin 512) :
    val_main_v9 (F := Ideal) x1 x2 x4 x5 (ix3 b o i) = modAt (fun k => x1 (ix2 b k)) x2 x4 x5 o i := by
  rw [val_main_v9_apply, val_main_v7_apply, val_main_v5_apply, val_main_v8_apply, val_main_v6_apply]
  have e1 : idx_main_v5 (idx_main_v7 (ix3 b o i)) = ix2 o i :=
    funext fun a => Fin.ext (by match a with | ⟨0, _⟩ => rfl | ⟨1, _⟩ => rfl)
  have e2 : idx_main_v6 (idx_main_v8 (ix3 b o i)) = ix2 b i :=
    funext fun a => Fin.ext (by match a with | ⟨0, _⟩ => rfl | ⟨1, _⟩ => rfl)
  rw [e1, e2, style_apply]
  rfl

/-- The demodulation factor at (b, o): the host's sum over i starts from the zero word, which is 0. -/
theorem norm_apply (b : Fin 16) (o : Fin 512) (u : Fin 1) :
    val_main_v15 (F := Ideal) x1 x2 x4 x5 (ix3 b o u) = normAt (fun k => x1 (ix2 b k)) x2 x4 x5 o := by
  rw [val_main_v15_apply, val_main_v14_apply, val_main_v13_apply, val_main_cst_0_apply, val_main_v12_apply,
    val_main_v11_apply, val_main_cst_apply]
  unfold normAt
  have es : ∀ k : Fin 512, idx_main_v11 (idx_main_v12 (ix3 b o u)) k = ix3 b o k := fun k =>
    funext fun a => Fin.ext (by match a with | ⟨0, _⟩ => rfl | ⟨1, _⟩ => rfl | ⟨2, _⟩ => rfl)
  simp only [es, val_main_v10_apply, mod_apply]
  show Ideal.rsqrt (Ideal.ofBits .f32 0x322BCC77#32 + (Ideal.ofBits .f32 0x00000000#32 + _)) = _
  rw [Ideal.ofBits_zero_f32, zero_add]
  rfl

/-- The demodulated weight at (b, o, i). -/
theorem demod_apply (b : Fin 16) (o i : Fin 512) :
    val_main_v17 (F := Ideal) x1 x2 x4 x5 (ix3 b o i) = demodAt (fun k => x1 (ix2 b k)) x2 x4 x5 o i := by
  rw [val_main_v17_apply, val_main_v16_apply, mod_apply]
  have e1 : idx_main_v16 (ix3 b o i) = ix3 b o (0 : Fin 1) :=
    funext fun a => Fin.ext (by match a with | ⟨0, _⟩ => rfl | ⟨1, _⟩ => rfl | ⟨2, _⟩ => rfl)
  rw [e1, norm_apply]
  rfl

/-- The reference's result at (b, n, o). -/
theorem result_apply (b : Fin 16) (n : Fin 4096) (o : Fin 512) :
    val_main_v22 (F := Ideal) x0 x1 x2 x3 x4 x5 (ix3 b n o) = resultAt x0 x1 x2 x3 x4 x5 b n o := by
  rw [val_main_v22_apply, val_main_v21_apply, val_main_v18_apply, val_main_v20_apply, val_main_v19_apply,
    val_main_call0_v0_apply, val_main_call0_cst_apply]
  have el : ∀ k : Fin 512, lidx_main_v18 (ix3 b n o) k = ix3 b n k := fun k =>
    funext fun a => Fin.ext (by match a with | ⟨0, _⟩ => rfl | ⟨1, _⟩ => rfl | ⟨2, _⟩ => rfl)
  have er : ∀ k : Fin 512, ridx_main_v18 (ix3 b n o) k = ix3 b o k := fun k =>
    funext fun a => Fin.ext (by match a with | ⟨0, _⟩ => rfl | ⟨1, _⟩ => rfl | ⟨2, _⟩ => rfl)
  have eb : idx_main_v19 (idx_main_v20 (ix3 b n o)) = ix1 o :=
    funext fun a => Fin.ext (by match a with | ⟨0, _⟩ => rfl)
  simp only [el, er, eb, demod_apply]
  rfl

/-- The reference's whole result array is the layer function of its six arguments. -/
theorem result_eq : val_main_v22 (F := Ideal) x0 x1 x2 x3 x4 x5 = result x0 x1 x2 x3 x4 x5 := by
  funext j
  obtain ⟨b, n, o, rfl⟩ : ∃ (b : Fin 16) (n : Fin 4096) (o : Fin 512), j = ix3 b n o := ⟨j 0, j 1, j 2, eq_ix3 j⟩
  exact result_apply x0 x1 x2 x3 x4 x5 b n o

end Cert.ModLinear.Ref

end
-- ==== Proof.KernelBody.lean ====
/-
  What one run of the kernel body leaves behind, as values of the blocks it loaded.

  At a point that opens a batch entry (the second grid coordinate is 0) the body first stores the demodulated,
  transposed weight of that entry into the carried scratch — one store covering the whole scratch, whose value is a
  function of the style row's block and of the three weight arrays — and then, reading that scratch back, stores the
  output block: the product of the x block with the scratch, plus the bias, floored at zero.  At the other points it
  stores nothing into the scratch and computes the output block from the scratch as the previous point left it.
  Each statement holds for any float instance: only loads, one covering store and a read-back are involved.
-/
import proofs.«103570_j82652350644272_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- A point that opens a batch entry leaves in the scratch the demodulated transposed weight computed from the style
    block, A_w, A_b and the weight: the value of its one covering store. -/
theorem scratch_open (c : Dev nD) (i : grid0.Coords) (arg2 : Memref sig .tc .vmem S1x2048x512 .f32) (harg2 : arg2.IsWhole) (arg3 : Memref sig .tc .vmem S1x1x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S512x512 .bf16) (harg9 : arg9.IsWhole) (hc0 : cond0_0 i)
    (x0 : Vec F S1x2048x512 .f32) (x1 : Vec F S1x1x512 .f32) (x2 : Vec F S512x512 .f32) (x3 : Vec F S512 .f32) (x4 : Vec F S512x512 .f32) (x5 : Vec F S512 .f32) :
    sout0_A_0 c i arg2 harg2 arg3 harg3 arg4 harg4 arg5 harg5 arg6 harg6 arg7 harg7 arg8 harg8 arg9 harg9 hc0 x0 x1 x2 x3 x4 x5 = k0_pay1 x1 x4 x5 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words

  rw [View.canon_unit_zero zeros2]
  simp only [View.readAt_eq_ld, harg3.read_unread, harg4.read_unread, harg6.read_unread, harg7.read_unread,
    View.ld_unit_zero (S := S1x1x512) zeros3, View.ld_unit_zero (S := S512x512) zeros2,
    View.ld_unit_zero (S := S512) zeros1]

/-- … and its output block is computed from the x block, that freshly stored scratch and the bias. -/
theorem out_open (c : Dev nD) (i : grid0.Coords) (arg2 : Memref sig .tc .vmem S1x2048x512 .f32) (harg2 : arg2.IsWhole) (arg3 : Memref sig .tc .vmem S1x1x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S512x512 .bf16) (harg9 : arg9.IsWhole) (hc0 : cond0_0 i)
    (x0 : Vec F S1x2048x512 .f32) (x1 : Vec F S1x1x512 .f32) (x2 : Vec F S512x512 .f32) (x3 : Vec F S512 .f32) (x4 : Vec F S512x512 .f32) (x5 : Vec F S512 .f32) :
    out0_A_6 c i arg2 harg2 arg3 harg3 arg4 harg4 arg5 harg5 arg6 harg6 arg7 harg7 arg8 harg8 arg9 harg9 hc0 x0 x1 x2 x3 x4 x5 = k0_pay2 x0 (k0_pay1 x1 x4 x5 x2) x3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words

  rw [View.canon_unit_zero zeros3, View.readCov_unit_zero (S := S512x512) _ zeros2]
  simp only [View.readAt_eq_ld, harg2.read_unread, harg3.read_unread, harg4.read_unread, harg5.read_unread,
    harg6.read_unread, harg7.read_unread,
    View.ld_unit_zero (S := S1x2048x512) zeros3, View.ld_unit_zero (S := S1x1x512) zeros3,
    View.ld_unit_zero (S := S512x512) zeros2, View.ld_unit_zero (S := S512) zeros1]

/-- At a later point of a batch entry the output block is computed from the x block, the scratch as the point before
    left it, and the bias. -/
theorem out_later (c : Dev nD) (i : grid0.Coords) (arg2 : Memref sig .tc .vmem S1x2048x512 .f32) (harg2 : arg2.IsWhole) (arg3 : Memref sig .tc .vmem S1x1x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S512x512 .bf16) (harg9 : arg9.IsWhole) (hc0 : ¬cond0_0 i)
    (x0 : Vec F S1x2048x512 .f32) (x1 : Vec F S1x1x512 .f32) (x2 : Vec F S512x512 .f32) (x3 : Vec F S512 .f32) (x4 : Vec F S512x512 .f32) (x5 : Vec F S512 .f32) (xs0 : Vec F S512x512 .bf16) :
    out0_B_6 c i arg2 harg2 arg3 harg3 arg4 harg4 arg5 harg5 arg6 harg6 arg7 harg7 arg8 harg8 arg9 harg9 hc0 x0 x1 x2 x3 x4 x5 xs0 = k0_pay2 x0 xs0 x3 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  rw [View.canon_unit_zero zeros3]
  simp only [View.readAt_eq_ld, harg2.read_unread, harg5.read_unread, harg9.read_unread,
    View.ld_unit_zero (S := S1x2048x512) zeros3, View.ld_unit_zero (S := S512x512) zeros2,
    View.ld_unit_zero (S := S512) zeros1]

end Cert.KernelIdeal.Body

end
-- ==== Proof.Payload.lean ====
/-
  The kernel body's two stored values, read at an index over the extended reals.

  The scratch store (a point that opens a batch entry): from the style block w_b (1, 1, 512), A_w, A_b and the weight,
    style(i)   = (∑_k w_b(k) · A_w(i,k)) + A_b(i)          a (1, 512) row: a matrix product contracting both second axes
    mod(o,i)   = weight(o,i) · style(i)                     the row broadcast over the output channels
    norm(o)    = rsqrt(ε + ∑_i mod(o,i)²)                   a (512, 1) column: a lane sum, kept as a column
    demod(o,i) = mod(o,i) · norm(o)                         the column broadcast over the input channels
  and the stored matrix is the TRANSPOSE of demod: entry (i, o) of the scratch is demod(o, i).
  The output store (every point): from the x block (1, 2048, 512), the scratch W (512, 512) and the bias,
    out(r, o) = max((∑_i x(r,i) · W(i,o)) + bias(o), 0).
  Over the extended reals a change of float format is the identity and a matrix product into a zero accumulator is the
  plain sum, so each entry is the corresponding expression of Spec.lean.
-/
import proofs.«103570_j82652350644272_2_alg».proof.Proof.Gen.KernelIdeal.Skeleton
import proofs.«103570_j82652350644272_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.ModLinear

/-! ## Two layout readings the layer needs: a column kept by a row reduction -/

/-- A vector of length a viewed as an (a, 1) column reads, at (p, 0), entry p. -/
theorem cast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An (a, 1) column broadcast to (a, b) reads, at (p, c), the column's entry p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The three contractions as plain sums -/

/-- In the style product the output's row coordinate is the left operand's row coordinate … -/
theorem styleLhs_row (j : S1x512.Idx) (q : dot_S1x512_S512x512_S1x512_1_1_0_0_n_n.contr.Idx) : (dot_S1x512_S512x512_S1x512_1_1_0_0_n_n.lhsIdx j q 0).val = (j 0).val := by
  unfold DotDims.lhsIdx
  rw [dif_neg (show ¬(0 : Fin S1x512.rank) ∈ dot_S1x512_S512x512_S1x512_1_1_0_0_n_n.lhsBatch by decide),
    dif_pos (show (0 : Fin S1x512.rank) ∈ dot_S1x512_S512x512_S1x512_1_1_0_0_n_n.lhsNonContracting by decide)]
  rfl
/-- … and its column coordinate is the right operand's ROW coordinate: both operands are contracted on their second axis. -/
theorem styleRhs_row (j : S1x512.Idx) (q : dot_S1x512_S512x512_S1x512_1_1_0_0_n_n.contr.Idx) : (dot_S1x512_S512x512_S1x512_1_1_0_0_n_n.rhsIdx j q 0).val = (j 1).val := by
  unfold DotDims.rhsIdx
  rw [dif_neg (show ¬(0 : Fin S512x512.rank) ∈ dot_S1x512_S512x512_S1x512_1_1_0_0_n_n.rhsBatch by decide),
    dif_pos (show (0 : Fin S512x512.rank) ∈ dot_S1x512_S512x512_S1x512_1_1_0_0_n_n.rhsNonContracting by decide)]
  rfl

/-- The style product: a (1, 512) row times a (512, 512) matrix, both contracted on their second axis. -/
theorem styleProduct_apply (L : FVec Ideal S1x512 .bf16) (R : FVec Ideal S512x512 .bf16) (u : Fin 1) (i : Fin 512) :
    matmul dot_S1x512_S512x512_S1x512_1_1_0_0_n_n none L R (constant S1x512 .f32 0x00000000#32) (ix2 u i)
      = ∑ k : Fin 512, L (ix2 u k) * R (ix2 i k) := by
  simp only [matmul]
  rw [Ideal.matmul_constant_zero_apply, ← Equiv.sum_comp (contrEquiv1 dot_S1x512_S512x512_S1x512_1_1_0_0_n_n 512 rfl rfl).symm]
  refine Finset.sum_congr rfl fun k _ => ?_
  have hk := contrEquiv1_symm_val dot_S1x512_S512x512_S1x512_1_1_0_0_n_n 512 rfl rfl k
  have el : dot_S1x512_S512x512_S1x512_1_1_0_0_n_n.lhsIdx (ix2 u i) ((contrEquiv1 dot_S1x512_S512x512_S1x512_1_1_0_0_n_n 512 rfl rfl).symm k) = ix2 u k :=
    funext fun a => Fin.ext (by
      match a with
      | ⟨0, _⟩ => exact styleLhs_row _ _
      | ⟨1, _⟩ => exact (dot_S1x512_S512x512_S1x512_1_1_0_0_n_n.lhsIdx_val_of_single rfl _ _).trans hk)
  have er : dot_S1x512_S512x512_S1x512_1_1_0_0_n_n.rhsIdx (ix2 u i) ((contrEquiv1 dot_S1x512_S512x512_S1x512_1_1_0_0_n_n 512 rfl rfl).symm k) = ix2 i k :=
    funext fun a => Fin.ext (by
      match a with
      | ⟨0, _⟩ => exact styleRhs_row _ _
      | ⟨1, _⟩ => exact (dot_S1x512_S512x512_S1x512_1_1_0_0_n_n.rhsIdx_val_of_single rfl _ _).trans hk)
  rw [el, er]

/-- In the layer's product the output's row coordinate is the left operand's row coordinate … -/
theorem layerLhs_row (j : S2048x512.Idx) (q : dot_S2048x512_S512x512_S2048x512_1_0_0_1_n_n.contr.Idx) : (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
/-- … and its column coordinate is the right operand's column coordinate. -/
theorem layerRhs_col (j : S2048x512.Idx) (q : dot_S2048x512_S512x512_S2048x512_1_0_0_1_n_n.contr.Idx) : (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The layer's product: a (2048, 512) block times a (512, 512) matrix, rows by columns. -/
theorem layerProduct_apply (L : FVec Ideal S2048x512 .bf16) (R : FVec Ideal S512x512 .bf16) (r : Fin 2048) (o : Fin 512) :
    matmul dot_S2048x512_S512x512_S2048x512_1_0_0_1_n_n none L R (constant S2048x512 .f32 0x00000000#32) (ix2 r o)
      = ∑ k : Fin 512, L (ix2 r k) * R (ix2 k o) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r o) ((contrEquiv1 dot_S2048x512_S512x512_S2048x512_1_0_0_1_n_n 512 rfl rfl).symm k) = ix2 r k :=
    funext fun a => Fin.ext (by
      match a with
      | ⟨0, _⟩ => exact layerLhs_row _ _
      | ⟨1, _⟩ => exact (dot_S2048x512_S512x512_S2048x512_1_0_0_1_n_n.lhsIdx_val_of_single rfl _ _).trans hk)
  have er : dot_S2048x512_S512x512_S2048x512_1_0_0_1_n_n.rhsIdx (ix2 r o) ((contrEquiv1 dot_S2048x512_S512x512_S2048x512_1_0_0_1_n_n 512 rfl rfl).symm k) = ix2 k o :=
    funext fun a => Fin.ext (by
      match a with
      | ⟨0, _⟩ => exact (dot_S2048x512_S512x512_S2048x512_1_0_0_1_n_n.rhsIdx_val_of_single rfl _ _).trans hk
      | ⟨1, _⟩ => exact layerRhs_col _ _)
  rw [el, er]

/-- A lane sum of a (512, 512) matrix, read at row o: the sum of that row. -/
theorem rowSum_apply (X : FVec Ideal S512x512 .f32) (o : Fin 512) :
    multiReduction .add [1] S512 X 0x00000000#32 reduces_S512x512_S512 (.inl rfl) rfl (ix1 o) = ∑ k : Fin 512, X (ix2 o k) := by
  refine (Ideal.multiReduction_add_single X 0x00000000#32 reduces_S512x512_S512 (.inl rfl) rfl (ix1 o)).trans ?_
  show ∑ k : Fin 512, X (reduces_S512x512_S512.lift (ix1 o) k) = _
  refine Finset.sum_congr rfl fun k _ => congrArg X ?_
  exact funext fun a => Fin.ext (by match a with | ⟨0, _⟩ => rfl | ⟨1, _⟩ => rfl)

/-! ## The scratch store, one intermediate value at a time -/

section Scratch
variable (x1 : Vec Ideal S1x1x512 .f32) (x2 x4 : Vec Ideal S512x512 .f32) (x5 : Vec Ideal S512 .f32)

/-- The style row as the body computes it. -/
def styleV : FVec Ideal S1x512 .f32 :=
  addf (matmul dot_S1x512_S512x512_S1x512_1_1_0_0_n_n none
      (truncf .bf16 (shapeCast S1x512 x1 shapeCasts_S1x1x512_S1x512) bitsLt_bf16_f32)
      (truncf .bf16 x4 bitsLt_bf16_f32) (constant S1x512 .f32 0x00000000#32))
    (shapeCast S1x512 x5 shapeCasts_S512_S1x512)

/-- The modulated weight as the body computes it. -/
def modV : FVec Ideal S512x512 .f32 := mulf x2 (broadcastTo S512x512 (styleV x1 x4 x5) broadcasts_S1x512_S512x512)

/-- The column of demodulation factors as the body computes it. -/
def normV : FVec Ideal S512x1 .f32 :=
  rsqrt (addf (broadcast S512x1 (Scalar.ofBits .f32 0x322BCC77#32))
    (shapeCast S512x1 (multiReduction .add [1] S512 (mulf (modV x1 x2 x4 x5) (modV x1 x2 x4 x5)) 0x00000000#32
      reduces_S512x512_S512 (.inl rfl) rfl) shapeCasts_S512_S512x1))

/-- The demodulated weight as the body computes it, before the transpose. -/
def demodV : FVec Ideal S512x512 .f32 :=
  mulf (modV x1 x2 x4 x5) (broadcastTo S512x512 (normV x1 x2 x4 x5) broadcasts_S512x1_S512x512)

/-- The stored value is the transpose of that, under two changes of format and a cast to its own shape. -/
theorem pay1_eq : k0_pay1 (F := Ideal) x1 x4 x5 x2
    = shapeCast S512x512 (truncf .bf16 (transpose S512x512 [1, 0] (demodV x1 x2 x4 x5) transposes_S512x512_p1_0_S512x512)
        bitsLt_bf16_f32) shapeCasts_S512x512_S512x512 := rfl

theorem styleV_apply (u : Fin 1) (i : Fin 512) :
    styleV x1 x4 x5 (ix2 u i) = styleAt (fun k => x1 (ix3 (0 : Fin 1) (0 : Fin 1) k)) x4 x5 i := by
  obtain rfl : u = 0 := Subsingleton.elim _ _
  unfold styleV styleAt
  rw [addf_apply, styleProduct_apply, shapeCast_a_1a_apply]
  refine congrArg (· + x5 (ix1 i)) (Finset.sum_congr rfl fun k _ => ?_)
  rw [truncf_apply, truncf_apply, shapeCast_1ab_ab_apply]

theorem modV_apply (o i : Fin 512) :
    modV x1 x2 x4 x5 (ix2 o i) = modAt (fun k => x1 (ix3 (0 : Fin 1) (0 : Fin 1) k)) x2 x4 x5 o i := by
  unfold modV modAt
  rw [mulf_apply, broadcastTo_1b_ab_apply, styleV_apply]

theorem normV_apply (o : Fin 512) (u : Fin 1) :
    normV x1 x2 x4 x5 (ix2 o u) = normAt (fun k => x1 (ix3 (0 : Fin 1) (0 : Fin 1) k)) x2 x4 x5 o := by
  unfold normV normAt
  show Ideal.rsqrt (Ideal.ofBits .f32 0x322BCC77#32 + shapeCast S512x1 _ shapeCasts_S512_S512x1 (ix2 o u)) = _
  refine congrArg (fun s => Ideal.rsqrt (Ideal.ofBits .f32 0x322BCC77#32 + s)) ?_
  refine (cast_col_apply _ shapeCasts_S512_S512x1 o u).trans ?_
  refine (rowSum_apply _ o).trans ?_
  refine Finset.sum_congr rfl fun k _ => ?_
  rw [mulf_apply, modV_apply]

theorem demodV_apply (o i : Fin 512) :
    demodV x1 x2 x4 x5 (ix2 o i) = demodAt (fun k => x1 (ix3 (0 : Fin 1) (0 : Fin 1) k)) x2 x4 x5 o i := by
  unfold demodV demodAt
  rw [mulf_apply, bcast_col_apply, modV_apply, normV_apply]

/-- Entry (i, o) of the stored scratch is the demodulated weight of output channel o at input channel i. -/
theorem pay1_apply (i o : Fin 512) :
    k0_pay1 (F := Ideal) x1 x4 x5 x2 (ix2 i o)
      = demodAt (fun k => x1 (ix3 (0 : Fin 1) (0 : Fin 1) k)) x2 x4 x5 o i := by
  rw [pay1_eq, shapeCast_self, truncf_apply, transpose_ix2_apply, demodV_apply]

end Scratch

/-! ## The output store -/

/-- Entry (0, r, o) of the stored output block: row r of the x block against column o of the scratch, plus the bias,
    floored at zero. -/
theorem pay2_apply (x0 : Vec Ideal S1x2048x512 .f32) (x6 : Vec Ideal S512x512 .bf16) (x8 : Vec Ideal S512 .f32)
    (u : Fin 1) (r : Fin 2048) (o : Fin 512) :
    k0_pay2 (F := Ideal) x0 x6 x8 (ix3 u r o)
      = actAt (fun k => x0 (ix3 (0 : Fin 1) r k)) (fun k => x6 (ix2 k o)) (x8 (ix1 o)) := by
  unfold k0_pay2 actAt
  rw [shapeCast_ab_1ab_apply, maximumf_apply, addf_apply, layerProduct_apply, broadcastTo_1b_ab_apply,
    shapeCast_a_1a_apply]
  refine congrArg (fun s => max (s + x8 (ix1 o)) zeroWord) (Finset.sum_congr rfl fun k _ => ?_)
  rw [truncf_apply, shapeCast_1ab_ab_apply]

end Cert.KernelIdeal.Pay

end
-- ==== Proof.Blocks.lean ====
/-
  The blocks the pipeline hands the body at a grid point, as parts of the argument arrays.

  The grid is 16 × 2, walked row-major: point t works on batch entry t / 2 and on the half t % 2 of its 4096 positions.
    the x block          rows 2048·(t % 2) … + 2047 of x(t / 2, ·, ·)
    the style block      row t / 2 of the style input (through a host line that only inserts a unit axis)
    weight, bias, A_w, A_b   the whole arrays, at every point
  The output block sits where the x block does.  The relations between the printed index maps and t are decided once
  over the 32 points.
-/
import proofs.«103570_j82652350644272_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps at point t: batch entry t / 2, half t % 2; the four weight arrays whole. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val / 2 ∧ win0_6.index t (1 : Fin 3) = t.val % 2 ∧ win0_6.index t (2 : Fin 3) = 0 :=
  (by decide +kernel : ∀ t : Fin grid0.N, _)

/-- The style array the region stages is the style input with a unit axis inserted. -/
theorem style_entry (c : Dev nD) :
    (V m c main_v0 : S16x1x512.Idx → EReal)
      = broadcastInDim S16x1x512 ![0, 2] bcast_S16x512_S16x1x512_0_2 (m ((c : Thread nD τ).loc main_arg1)) := by
  dsimp only [Gen.V, Gen.hostOps0]; after_results

/-- … so its entry (b, 0, k) is the style input's entry (b, k). -/
theorem style_entry_apply (c : Dev nD) (b : Fin 16) (u : Fin 1) (k : Fin 512) :
    (V m c main_v0 : S16x1x512.Idx → EReal) (ix3 b u k) = m ((c : Thread nD τ).loc main_arg1) (ix2 b k) := by
  rw [style_entry]
  exact broadcastInDim_apply _ bcast_S16x512_S16x1x512_0_2 _ (ix3 b u k) (ix2 b k) (fun a => match a with
    | ⟨0, _⟩ => by show b.val = if (16 : Nat) = 1 then 0 else b.val; rw [if_neg (by decide)]
    | ⟨1, _⟩ => by show k.val = if (512 : Nat) = 1 then 0 else k.val; rw [if_neg (by decide)])

/-- The x block at point t: row r of the block is row 2048·(t % 2) + r of batch entry t / 2. -/
theorem x_block (c : Dev nD) (t : Fin cfg0.N) (b : Fin 16) (hb : b.val = t.val / 2) (u : Fin 1) (r : Fin 2048) (n : Fin 4096)
    (hn : n.val = 2048 * (t.val % 2) + r.val) (k : Fin 512) :
    (iblk m c 0 t : Vec Ideal S1x2048x512 .f32) (ix3 u r k) = m ((c : Thread nD τ).loc main_arg0) (ix3 b n k) := by
  obtain ⟨e0, e1, e2, -⟩ := idx_facts t
  have hu : u.val = 0 := by omega
  unfold iblk
  rw [View.read_apply]
  show V m c main_arg0 (((cfg0.win 0).blk t).view.emb (ix3 u r k)) = _
  refine (congrFun (V_main_arg0 m c) _).trans (congrArg (m ((c : Thread nD τ).loc main_arg0)) (funext fun a => Fin.ext ?_))
  match a with
  | ⟨0, _⟩ => show win0_0.index t (0 : Fin 3) * 1 + 1 * u.val = b.val; omega
  | ⟨1, _⟩ => show win0_0.index t (1 : Fin 3) * 2048 + 1 * r.val = n.val; omega
  | ⟨2, _⟩ => show win0_0.index t (2 : Fin 3) * 512 + 1 * k.val = k.val; omega

/-- The style block at point t is row t / 2 of the style input. -/
theorem style_block (c : Dev nD) (t : Fin cfg0.N) (b : Fin 16) (hb : b.val = t.val / 2) (u v : Fin 1) (k : Fin 512) :
    (iblk m c 1 t : Vec Ideal S1x1x512 .f32) (ix3 u v k) = m ((c : Thread nD τ).loc main_arg1) (ix2 b k) := by
  obtain ⟨-, -, -, e0, e1, e2, -⟩ := idx_facts t
  have hu : u.val = 0 := by omega
  have hv : v.val = 0 := by omega
  unfold iblk
  rw [View.read_apply]
  show V m c main_v0 (((cfg0.win 1).blk t).view.emb (ix3 u v k)) = _
  refine Eq.trans (congrArg (V m c main_v0 : S16x1x512.Idx → EReal) (funext fun a => Fin.ext ?_)) (style_entry_apply m c b (0 : Fin 1) k)
  match a with
  | ⟨0, _⟩ => show win0_1.index t (0 : Fin 3) * 1 + 1 * u.val = b.val; omega
  | ⟨1, _⟩ => show win0_1.index t (1 : Fin 3) * 1 + 1 * v.val = 0; omega
  | ⟨2, _⟩ => show win0_1.index t (2 : Fin 3) * 512 + 1 * k.val = k.val; omega

/-- The weight's block is the whole weight, at every point. -/
theorem weight_block (c : Dev nD) (t : Fin cfg0.N) :
    (iblk m c 2 t : Vec Ideal S512x512 .f32) = m ((c : Thread nD τ).loc main_arg2) := by
  obtain ⟨-, -, -, -, -, -, e0, e1, -⟩ := idx_facts t
  funext j
  unfold iblk
  rw [View.read_apply]
  show V m c main_arg2 (((cfg0.win 2).blk t).view.emb j) = _
  refine (congrFun (V_main_arg2 m c) _).trans (congrArg (m ((c : Thread nD τ).loc main_arg2)) (funext fun a => Fin.ext ?_))
  match a with
  | ⟨0, _⟩ => show win0_2.index t (0 : Fin 2) * 512 + 1 * (j 0).val = (j 0).val; omega
  | ⟨1, _⟩ => show win0_2.index t (1 : Fin 2) * 512 + 1 * (j 1).val = (j 1).val; omega

/-- The bias's block is the whole bias. -/
theorem bias_block (c : Dev nD) (t : Fin cfg0.N) :
    (iblk m c 3 t : Vec Ideal S512 .f32) = m ((c : Thread nD τ).loc main_arg3) := by
  obtain ⟨-, -, -, -, -, -, -, -, e0, -⟩ := idx_facts t
  funext j
  unfold iblk
  rw [View.read_apply]
  show V m c main_arg3 (((cfg0.win 3).blk t).view.emb j) = _
  refine (congrFun (V_main_arg3 m c) _).trans (congrArg (m ((c : Thread nD τ).loc main_arg3)) (funext fun a => Fin.ext ?_))
  match a with
  | ⟨0, _⟩ => show win0_3.index t (0 : Fin 1) * 512 + 1 * (j 0).val = (j 0).val; omega

/-- A_w's block is the whole A_w. -/
theorem aw_block (c : Dev nD) (t : Fin cfg0.N) :
    (iblk m c 4 t : Vec Ideal S512x512 .f32) = m ((c : Thread nD τ).loc main_arg4) := by
  obtain ⟨-, -, -, -, -, -, -, -, -, e0, e1, -⟩ := idx_facts t
  funext j
  unfold iblk
  rw [View.read_apply]
  show V m c main_arg4 (((cfg0.win 4).blk t).view.emb j) = _
  refine (congrFun (V_main_arg4 m c) _).trans (congrArg (m ((c : Thread nD τ).loc main_arg4)) (funext fun a => Fin.ext ?_))
  match a with
  | ⟨0, _⟩ => show win0_4.index t (0 : Fin 2) * 512 + 1 * (j 0).val = (j 0).val; omega
  | ⟨1, _⟩ => show win0_4.index t (1 : Fin 2) * 512 + 1 * (j 1).val = (j 1).val; omega

/-- A_b's block is the whole A_b. -/
theorem ab_block (c : Dev nD) (t : Fin cfg0.N) :
    (iblk m c 5 t : Vec Ideal S512 .f32) = m ((c : Thread nD τ).loc main_arg5) := by
  obtain ⟨-, -, -, -, -, -, -, -, -, -, -, e0, -⟩ := idx_facts t
  funext j
  unfold iblk
  rw [View.read_apply]
  show V m c main_arg5 (((cfg0.win 5).blk t).view.emb j) = _
  refine (congrFun (V_main_arg5 m c) _).trans (congrArg (m ((c : Thread nD τ).loc main_arg5)) (funext fun a => Fin.ext ?_))
  match a with
  | ⟨0, _⟩ => show win0_5.index t (0 : Fin 1) * 512 + 1 * (j 0).val = (j 0).val; omega

end Cert.KernelIdeal.Blocks

end
-- ==== Proof.Carry.lean ====
/-
  What the output block and the carried scratch hold after each grid point.

  The scratch is written only at the first point of a batch entry (an even point, t = 2b) and is read, unchanged, by the
  entry's second point (t = 2b + 1); so after EITHER point of batch entry b it holds the transposed demodulated weight
  of entry b.  The period is two, so no induction over the grid is needed: an odd point looks one point back, at an
  even one.  At every point the output block is the body's second stored value of the x block, that scratch and the bias;
  read at an index it is the layer function at batch entry t / 2, position 2048·(t % 2) + r, output channel o.
-/
import proofs.«103570_j82652350644272_2_alg».proof.Proof.Gen.KernelIdeal.Frame
import proofs.«103570_j82652350644272_2_alg».proof.Proof.KernelBody
import proofs.«103570_j82652350644272_2_alg».proof.Proof.Payload
import proofs.«103570_j82652350644272_2_alg».proof.Proof.Blocks

noncomputable section

namespace Cert.KernelIdeal.Carry

open Cert.KernelIdeal Cert.KernelIdeal.Gen Idealize.ShloMosaic Idealize.ShloMosaic.TcCoe Idealize.SL.Sem
open Idealize.ShloMosaic.ValueIdx Cert.ModLinear

variable (m : (ℓ : Loc nD τ sig) → Buf (Elt Ideal) ℓ)

/-- After a point that opens a batch entry the scratch holds the body's first stored value of that point's blocks. -/
theorem scratch_open_val (c : Dev nD) (t : Fin cfg0.N) (h0 : t.val % 2 = 0) :
    (outsAt0 m c t.val t.isLt).2 = k0_pay1 (F := Ideal) (iblk m c 1 t) (iblk m c 4 t) (iblk m c 5 t) (iblk m c 2 t) := by
  rw [outsAt0_A m c t h0]
  dsimp only
  exact Body.scratch_open (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) ((hcond0_0 t).mpr h0) (iblk m c 0 t) (iblk m c 1 t) (iblk m c 2 t) (iblk m c 3 t) (iblk m c 4 t) (iblk m c 5 t)

/-- … which, entry by entry, is the transposed demodulated weight of batch entry t / 2. -/
theorem scratch_open_apply (c : Dev nD) (t : Fin cfg0.N) (h0 : t.val % 2 = 0) (b : Fin 16) (hb : b.val = t.val / 2)
    (i o : Fin 512) :
    (outsAt0 m c t.val t.isLt).2 (ix2 i o)
      = demodAt (fun k => (m ((c : Thread nD τ).loc main_arg1)) (ix2 b k)) (m ((c : Thread nD τ).loc main_arg2)) (m ((c : Thread nD τ).loc main_arg4)) (m ((c : Thread nD τ).loc main_arg5)) o i := by
  rw [scratch_open_val m c t h0]
  refine (Pay.pay1_apply (iblk m c 1 t) (iblk m c 2 t) (iblk m c 4 t) (iblk m c 5 t) i o).trans ?_
  rw [Blocks.weight_block, Blocks.aw_block, Blocks.ab_block]
  refine congrArg (fun wr => demodAt wr (m ((c : Thread nD τ).loc main_arg2)) (m ((c : Thread nD τ).loc main_arg4)) (m ((c : Thread nD τ).loc main_arg5)) o i) (funext fun k => ?_)
  exact Blocks.style_block m c t b hb (0 : Fin 1) (0 : Fin 1) k

/-- After either point of batch entry b the scratch holds that entry's transposed demodulated weight. -/
theorem scratch_apply (c : Dev nD) (t : Fin cfg0.N) (b : Fin 16) (hb : b.val = t.val / 2) (i o : Fin 512) :
    (outsAt0 m c t.val t.isLt).2 (ix2 i o)
      = demodAt (fun k => (m ((c : Thread nD τ).loc main_arg1)) (ix2 b k)) (m ((c : Thread nD τ).loc main_arg2)) (m ((c : Thread nD τ).loc main_arg4)) (m ((c : Thread nD τ).loc main_arg5)) o i := by
  by_cases h0 : t.val % 2 = 0
  · exact scratch_open_apply m c t h0 b hb i o
  · rw [outsAt0_B m c t h0]
    dsimp only
    unfold sout0_B_0
    have hlt : t.val - 1 < cfg0.N := Nat.lt_of_le_of_lt (Nat.sub_le _ _) t.isLt
    exact scratch_open_apply m c ⟨t.val - 1, hlt⟩ (by show (t.val - 1) % 2 = 0; omega) b
      (by show b.val = (t.val - 1) / 2; omega) i o

/-- At every point the output block is the body's second stored value of the x block, the scratch as it stands after
    the point, and the bias. -/
theorem out_val (c : Dev nD) (t : Fin cfg0.N) :
    (outsAt0 m c t.val t.isLt).1 = k0_pay2 (F := Ideal) (iblk m c 0 t) ((outsAt0 m c t.val t.isLt).2) (iblk m c 3 t) := by
  by_cases h0 : t.val % 2 = 0
  · rw [scratch_open_val m c t h0, outsAt0_A m c t h0]
    dsimp only
    exact Body.out_open (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) ((hcond0_0 t).mpr h0) (iblk m c 0 t) (iblk m c 1 t) (iblk m c 2 t) (iblk m c 3 t) (iblk m c 4 t) (iblk m c 5 t)
  · rw [outsAt0_B m c t h0]
    dsimp only
    unfold sout0_B_0
    exact Body.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) (fun h => h0 ((hcond0_0 t).mp h)) (iblk m c 0 t) (iblk m c 1 t) (iblk m c 2 t) (iblk m c 3 t) (iblk m c 4 t) (iblk m c 5 t)
      ((outsAt0 m c (t.val - 1) (Nat.lt_of_le_of_lt (Nat.sub_le _ _) t.isLt)).2)

/-- Entry (0, r, o) of the output block at point t is the layer function at batch entry t / 2, position
    2048·(t % 2) + r, output channel o. -/
theorem out_apply (c : Dev nD) (t : Fin cfg0.N) (b : Fin 16) (hb : b.val = t.val / 2) (u : Fin 1) (r : Fin 2048)
    (n : Fin 4096) (hn : n.val = 2048 * (t.val % 2) + r.val) (o : Fin 512) :
    (outsAt0 m c t.val t.isLt).1 (ix3 u r o)
      = resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b n o := by
  rw [out_val m c t]
  refine (Pay.pay2_apply (iblk m c 0 t) ((outsAt0 m c t.val t.isLt).2) (iblk m c 3 t) u r o).trans ?_
  unfold resultAt
  rw [Blocks.bias_block]
  refine congrArg₂ (fun xr wc => actAt xr wc ((m ((c : Thread nD τ).loc main_arg3)) (ix1 o))) (funext fun k => ?_) (funext fun k => ?_)
  · exact Blocks.x_block m c t b hb (0 : Fin 1) r n hn k
  · exact scratch_apply m c t b hb k o

end Cert.KernelIdeal.Carry

end
-- ==== Proof.LayerValue.lean ====
/-
  The kernel's result array after the run is the layer function of its six arguments.

  Point t writes back the block of positions 2048·(t % 2) … + 2047 of batch entry t / 2, and what it writes is that block
  of the layer function (the per-point values of the previous module, read through the block's place in the array).
  The 32 blocks tile the (16, 4096, 512) array — the point covering index (b, n, o) is 2b + n / 2048 — so the whole
  array is the layer function.
-/
import proofs.«103570_j82652350644272_2_alg».proof.Proof.Gen.KernelIdeal.Value
import proofs.«103570_j82652350644272_2_alg».proof.Proof.Carry

noncomputable section

namespace Cert.KernelIdeal.Layer

open Cert.KernelIdeal Cert.KernelIdeal.Gen Idealize.ShloMosaic Idealize.ShloMosaic.TcCoe Idealize.SL.Sem
open Idealize.ShloMosaic.ValueIdx Cert.ModLinear
open Idealize.ShloMosaic.Pipeline (Dat)

variable (m : (ℓ : Loc nD τ sig) → Buf (Elt Ideal) ℓ) (ρ : Dev nD → PrngReg)

/-- The layer function of the launch contents of the six arguments. -/
abbrev layer (c : Dev nD) : S16x4096x512.Idx → EReal := result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point t writes back is block t of the layer function. -/
theorem flushed_eq (c : Dev nD) (t : Fin cfg0.N) :
    (dats m 0 c).flushed 6 t = ((cfg0.win 6).blk t).view.read (Elt Ideal) (layer m c) := by
  obtain ⟨-, -, -, -, -, -, -, -, -, -, -, -, e0, e1, e2⟩ := Blocks.idx_facts t
  have hN : t.val < 32 := lt_of_lt_of_eq t.isLt N_0
  rw [Value.flushed6]
  funext y
  obtain ⟨u, r, o, rfl⟩ : ∃ (u : Fin 1) (r : Fin 2048) (o : Fin 512), y = ix3 u r o := ⟨y 0, y 1, y 2, eq_ix3 y⟩
  have hu : u.val = 0 := by omega
  have hr : r.val < 2048 := r.isLt
  show (outsAt0 m c t.val t.isLt).1 (ix3 u r o) = layer m c (((cfg0.win 6).blk t).view.emb (ix3 u r o))
  rw [Carry.out_apply m c t ⟨t.val / 2, by omega⟩ rfl u r ⟨2048 * (t.val % 2) + r.val, by omega⟩ rfl o]
  refine (result_of_coords _ _ _ _ _ _ _ _ _ _ ?_ ?_ ?_).symm
  · show win0_6.index t (0 : Fin 3) * 1 + 1 * u.val = t.val / 2; omega
  · show win0_6.index t (1 : Fin 3) * 2048 + 1 * r.val = 2048 * (t.val % 2) + r.val; omega
  · show win0_6.index t (2 : Fin 3) * 512 + 1 * o.val = o.val; omega

/-- An index of the array is in point t's block iff each coordinate is in the block's range on its axis. -/
theorem mem_blk (t : Fin cfg0.N) (i : S16x4096x512.Idx) :
    i ∈ ((cfg0.win 6).blk t).view.set ↔ ∀ a : Fin 3, win0_6.index t a * S1x2048x512.size a ≤ (i a).val
      ∧ (i a).val < win0_6.index t a * S1x2048x512.size a + S1x2048x512.size a := by
  show i ∈ ((View.whole main_v1).slice (win0_6.rect t)).set ↔ _
  rw [View.set_slice_whole, Rect.mem_set_unit]
  exact Iff.rfl

/-- Every index (b, n, o) is in the block of point 2b + n / 2048. -/
theorem cover (i : S16x4096x512.Idx) :
    ∃ t : Fin cfg0.N, (cfg0.win 6).flush t = true ∧ i ∈ ((cfg0.win 6).blk t).view.set := by
  have hi0 : (i 0).val < 16 := (i 0).isLt
  have hi1 : (i 1).val < 4096 := (i 1).isLt
  have hi2 : (i 2).val < 512 := (i 2).isLt
  have hN : cfg0.N = 32 := N_0
  obtain ⟨t, ht⟩ : ∃ t : Fin cfg0.N, t.val = 2 * (i 0).val + (i 1).val / 2048 :=
    ⟨⟨2 * (i 0).val + (i 1).val / 2048, by rw [hN]; omega⟩, rfl⟩
  obtain ⟨-, -, -, -, -, -, -, -, -, -, -, -, e0, e1, e2⟩ := Blocks.idx_facts t
  refine ⟨t, flush0_6 t, ?_⟩
  rw [mem_blk]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 2048 ≤ (i 1).val ∧ (i 1).val < win0_6.index t (1 : Fin 3) * 2048 + 2048
    omega
  | ⟨2, _⟩ =>
    show win0_6.index t (2 : Fin 3) * 512 ≤ (i 2).val ∧ (i 2).val < win0_6.index t (2 : Fin 3) * 512 + 512
    omega

/-- So the result array ends holding the layer function. -/
theorem final (c : Dev nD) : (dats m 0 c).arrAt 6 cfg0.N = layer m c :=
  (dats m 0 c).arrAt_eq_of_cover 6 (layer m c) (fun t _ => flushed_eq m c t) cover

/-- The kernel's run: the result array at the layer function of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Layer

end
-- ==== Proof.lean ====
/-
  A modulated linear layer with weight demodulation, followed by relu: the fused kernel against the jnp reference.

  Both programs compute, for batch entry b, position n and output channel o,
      max((∑_i x(b,n,i) · demod_b(o,i)) + bias(o), 0),
      demod_b(o,i) = mod_b(o,i) · rsqrt(ε + ∑_i' mod_b(o,i')²),   mod_b(o,i) = weight(o,i) · ((∑_k w(b,k) · A_w(i,k)) + A_b(i)),
  with the same f32 word for ε.  The kernel walks a 16 × 2 grid; at the first of the two points of a batch entry it builds
  the demodulated weight, transposed, in a scratch buffer it keeps for the second point, and at each point it multiplies a
  block of 2048 positions by that scratch.  The reference builds the demodulated weights of all sixteen entries and does
  one batched product.  Over the extended reals a change of float format is the identity and every sum is the plain
  finite sum, so the two results are the same expression index by index: no law of arithmetic beyond reading each
  program's terms is needed, and the finiteness precondition is never opened.

  The modules: Spec (the layer as one function of the arguments), RefLayer (the reference's stages are that function),
  KernelBody and Payload (what one run of the body stores, read at an index), Blocks (the blocks a point is handed, as
  parts of the arguments), Carry (output block and scratch after each point), LayerValue (the result array after the run).
-/
import proofs.«103570_j82652350644272_2_alg».proof.Defs
import proofs.«103570_j82652350644272_2_alg».proof.Proof.Gen.Kernel
import proofs.«103570_j82652350644272_2_alg».proof.Proof.Gen.Kernel.Skeleton
import proofs.«103570_j82652350644272_2_alg».proof.Proof.Gen.Kernel.Launch
import proofs.«103570_j82652350644272_2_alg».proof.Proof.Gen.Kernel.Points
import proofs.«103570_j82652350644272_2_alg».proof.Proof.Gen.Kernel.Frame
import proofs.«103570_j82652350644272_2_alg».proof.Proof.Gen.KernelIdeal
import proofs.«103570_j82652350644272_2_alg».proof.Proof.Gen.KernelIdeal.Skeleton
import proofs.«103570_j82652350644272_2_alg».proof.Proof.Gen.KernelIdeal.Launch
import proofs.«103570_j82652350644272_2_alg».proof.Proof.Gen.KernelIdeal.Points
import proofs.«103570_j82652350644272_2_alg».proof.Proof.Gen.KernelIdeal.Frame
import proofs.«103570_j82652350644272_2_alg».proof.Proof.Gen.ReferenceIdeal
import proofs.«103570_j82652350644272_2_alg».proof.Proof.Gen.KernelIdeal.Value
import proofs.«103570_j82652350644272_2_alg».proof.Proof.Gen.ReferenceIdeal.Run
import proofs.«103570_j82652350644272_2_alg».proof.Proof.Gen.ReferenceIdeal.Read
import proofs.«103570_j82652350644272_2_alg».proof.Proof.Gen.Pre_finite_inputs
import proofs.«103570_j82652350644272_2_alg».proof.Proof.RefLayer
import proofs.«103570_j82652350644272_2_alg».proof.Proof.LayerValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- Both programs end with the layer function of the (agreeing) arguments in their result arrays. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v22_eq _ _ _ _ _ _).trans ?_
  rw [Cert.ModLinear.Ref.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
